-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S5000x128 : Shape := ⟨2, ![5000, 128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 68
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .bf16⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .bf16⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S850000x1, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The node-feature matrix both programs aggregate, as a plain sum.

  `h = x · W` with `x : [50000, 128]` and `W : [128, 128]`: entry `(r, j)` is `∑ k, x (r, k) * W (k, j)` on the
  extended reals.  No law of the extended reals beyond reading both programs' products as this one sum is needed:
  the kernel's blocks are restrictions of it, and the reference's host product is it.
-/
import Idealize.ShloMosaic.PureOps.Ideal
import Idealize.ShloMosaic.Lib.ValueIdx

noncomputable section

namespace Cert.Bridge

open Idealize.ShloMosaic

/-- The product `x · W`: entry `(r, j)` is `∑ k, x (r, k) * W (k, j)`. -/
def prod (x : FVec Ideal ⟨2, ![50000, 128]⟩ .f32) (w : FVec Ideal ⟨2, ![128, 128]⟩ .f32) : FVec Ideal ⟨2, ![50000, 128]⟩ .f32 :=
  fun i => ∑ k : Fin 128, x (ValueIdx.ix2 (i 0) k) * w (ValueIdx.ix2 k (i 1))

end Cert.Bridge

end
-- ==== Proof.Tail.lean ====
/-
  The part of the computation that the kernel's program and the reference share.

  Both programs build the same graph-convolution aggregation around a node-feature matrix `h : [50000, 128]`:
  with self loops appended to the edge list (`row`, `col` of length 850000, the weights extended by ones),
  `deg = segment_sum (ew, col)`, `dinv = where (deg > 0, rsqrt deg, 0)`, `norm = dinv[row] * ew * dinv[col]`,
  and the result is `segment_sum (norm[:, None] * h[row], col) + b`. Only `h` differs in how it is made: the
  reference takes the host's product `x · W`, the kernel's program a pipelined block product.  So the whole
  aggregation is named here once, as ONE function `tail` of `h` and of the three other arguments it reads (the
  edge index, the edge weights, the bias), over the stages of the reference read one operation at a time; nothing
  below ever opens it, and both sides are compared by comparing the `h` they feed it.
-/
import proofs.«166697_j40175124087238_2_alg».proof.Proof.Gen.ReferenceIdeal.Read
import proofs.«166697_j40175124087238_2_alg».proof.Proof.Spec

noncomputable section

namespace Cert.Bridge

open Idealize.ShloMosaic Cert.ReferenceIdeal Cert.ReferenceIdeal.Read

/-- The aggregation around a feature matrix `h`: gather the rows `h[row]`, scale row `e` by `norm e`, add the
    scaled rows into the rows `col e` of a zero matrix, add the bias to every row. -/
def tail (h : FVec Ideal S50000x128 .f32) (x1 : IVec S2x800000 32) (x2 : FVec Ideal S800000 .f32) (x4 : FVec Ideal S128 .f32) :
    FVec Ideal S50000x128 .f32 :=
  addf (F := Ideal) (φ := .f32)
    (Host.scatterAdd (F := Ideal) scatter_S50000x128_S850000x1_S850000x128_1_0_0_1 (val_main_v43 (F := Ideal)) (val_main_v44 (F := Ideal) x1)
      (mulf (F := Ideal) (φ := .f32) (val_main_v41 (F := Ideal) x1 x2)
        (Host.gather gather_S50000x128_S850000x1_S850000x128_1_0_n_n_0_1_1128 h (val_main_v39 (F := Ideal) x1))))
    (val_main_v47 (F := Ideal) x4)

/-- The reference's result is the aggregation around the host's product `x · W`. -/
theorem reference_eq (x0 : FVec Ideal S50000x128 .f32) (x1 : IVec S2x800000 32) (x2 : FVec Ideal S800000 .f32)
    (x3 : FVec Ideal S128x128 .f32) (x4 : FVec Ideal S128 .f32) :
    val_main_v48 (F := Ideal) x0 x1 x2 x3 x4 = tail (val_main_v32 (F := Ideal) x0 x3) x1 x2 x4 := by
  unfold val_main_v48 val_main_v45 val_main_v42 val_main_v40 tail
  rfl

/-- The host's `dot_general` over the one contracted axis is that sum. -/
theorem dot_eq_prod (x : FVec Ideal S50000x128 .f32) (w : FVec Ideal S128x128 .f32) :
    val_main_v32 (F := Ideal) x w = prod x w := by
  funext i
  rw [val_main_v32_apply]
  unfold prod
  refine Finset.sum_congr rfl fun k _ => ?_
  have el : lidx_main_v32 i k = ValueIdx.ix2 (i 0) k :=
    funext fun a => Fin.ext (by match a with | ⟨0, _⟩ => rfl | ⟨1, _⟩ => rfl)
  have er : ridx_main_v32 i k = ValueIdx.ix2 k (i 1) :=
    funext fun a => Fin.ext (by match a with | ⟨0, _⟩ => rfl | ⟨1, _⟩ => rfl)
  rw [el, er] <;> rfl

end Cert.Bridge

end
-- ==== Proof.BlockProduct.lean ====
/-
  What the kernel body computes at one grid point, entry by entry.

  The body loads a block of 5000 rows of `x` and the whole 128 × 128 matrix `W`, multiplies them on the matrix unit
  into a zero accumulator and stores the product.  The three changes of float format around the product (both
  operands narrowed before it, the result narrowed after it) are the identity on the extended reals, and a sum into a
  zero accumulator is the sum, so entry `(p, q)` of what the body stores is `∑ k, xblock (p, k) * W (k, q)`.
-/
import proofs.«166697_j40175124087238_2_alg».proof.Proof.Gen.KernelIdeal.Skeleton
import Idealize.ShloMosaic.Lib.ValueIdx
import Idealize.ShloMosaic.PureOps.Ideal.Laws

noncomputable section

namespace Cert.Bridge

open Idealize.ShloMosaic Cert.KernelIdeal Cert.KernelIdeal.Gen

/-- The dimension numbers of the body's product: rows × contraction times contraction × columns. -/
abbrev blockDot : DotDims S5000x128 S128x128 S5000x128 := dot_S5000x128_S128x128_S5000x128_1_0_0_1_n_n

/-- The left operand is read at the output's row and the contraction coordinate, -/
theorem blockDot_lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide),
    dif_pos (show (0 : Fin S5000x128.rank) ∈ blockDot.lhsNonContracting by decide)]
  rfl
theorem blockDot_lhs_col (i : S5000x128.Idx) (q : blockDot.contr.Idx) : (blockDot.lhsIdx i q 1).val = (q ⟨0, by decide⟩).val :=
  blockDot.lhsIdx_val_of_single rfl i q
/-- the right operand at the contraction coordinate and the output's column. -/
theorem blockDot_rhs_row (i : S5000x128.Idx) (q : blockDot.contr.Idx) : (blockDot.rhsIdx i q 0).val = (q ⟨0, by decide⟩).val :=
  blockDot.rhsIdx_val_of_single rfl i q
theorem blockDot_rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- Entry `(p, q)` of the block the body stores: the sum over `k` of the row block's `(p, k)` times `W`'s `(k, q)`. -/
theorem payload_apply (xb : FVec Ideal S5000x128 .f32) (w : FVec Ideal S128x128 .f32) (p : Fin 5000) (q : Fin 128) :
    k0_pay1 (F := Ideal) xb w (ValueIdx.ix2 p q) = ∑ k : Fin 128, xb (ValueIdx.ix2 p k) * w (ValueIdx.ix2 k q) := by
  unfold k0_pay1
  refine (Ideal.matmul_constant_zero_apply blockDot none
    (truncf (F := Ideal) .bf16 xb bitsLt_bf16_f32) (truncf (F := Ideal) .bf16 w bitsLt_bf16_f32) (ValueIdx.ix2 p q)).trans ?_
  refine (Equiv.sum_comp (ValueIdx.contrEquiv1 blockDot 128 rfl rfl).symm _).symm.trans ?_
  refine Finset.sum_congr rfl fun k _ => ?_
  have hk := ValueIdx.contrEquiv1_symm_val blockDot 128 rfl rfl k
  have el : blockDot.lhsIdx (ValueIdx.ix2 p q) ((ValueIdx.contrEquiv1 blockDot 128 rfl rfl).symm k) = ValueIdx.ix2 p k :=
    funext fun a => Fin.ext (by
      match a with
      | ⟨0, _⟩ => exact blockDot_lhs_row _ _
      | ⟨1, _⟩ => exact (blockDot_lhs_col _ _).trans hk)
  have er : blockDot.rhsIdx (ValueIdx.ix2 p q) ((ValueIdx.contrEquiv1 blockDot 128 rfl rfl).symm k) = ValueIdx.ix2 k q :=
    funext fun a => Fin.ext (by
      match a with
      | ⟨0, _⟩ => exact (blockDot_rhs_row _ _).trans hk
      | ⟨1, _⟩ => exact blockDot_rhs_col _ _)
  show xb (blockDot.lhsIdx (ValueIdx.ix2 p q) ((ValueIdx.contrEquiv1 blockDot 128 rfl rfl).symm k))
      * w (blockDot.rhsIdx (ValueIdx.ix2 p q) ((ValueIdx.contrEquiv1 blockDot 128 rfl rfl).symm k)) = _
  rw [el, er]

end Cert.Bridge

end
-- ==== Proof.WholeProduct.lean ====
/-
  From the kernel's blocks to the whole array `x · W`.

  The pipeline runs the body at the ten points of a one-axis grid.  At point `t` the first operand's block is rows
  `5000 t … 5000 t + 4999` of `x` (all 128 columns), the second operand's block is all of `W`, and the block written
  back is rows `5000 t … 5000 t + 4999` of the output.  Entry `(p, q)` of what point `t` writes is, by the body's
  product read at an index, `∑ k, x (5000 t + p, k) * W (k, q)`: exactly entry `(5000 t + p, q)` of the one whole-array
  function `prod x W`.  Row `r` of the output lies in the block of point `r / 5000`, so the ten blocks cover the
  array and it ends holding `prod x W`.
-/
import proofs.«166697_j40175124087238_2_alg».proof.Proof.Gen.KernelIdeal.Frame
import proofs.«166697_j40175124087238_2_alg».proof.Proof.BlockProduct
import proofs.«166697_j40175124087238_2_alg».proof.Proof.Spec
import Idealize.ShloMosaic.Lib.Pipeline.Value

set_option maxRecDepth 16384

noncomputable section

namespace Cert.Bridge

open Idealize.ShloMosaic Idealize.ShloMosaic.TcCoe Idealize.SL.Sem
open Cert.KernelIdeal Cert.KernelIdeal.Gen

variable (m : (ℓ : Loc nD τ sig) → Buf (Elt Ideal) ℓ)

/-- The body's loads and its store are through the whole staging buffers: offset zero on both axes. -/
theorem offset_zero : (![0, 0] : Fin 2 → Nat) = fun _ => 0 := funext fun a => by fin_cases a <;> rfl

/-- The three index maps over the grid: the row-block index of `x`'s window is the output's, every column-block
    index is zero, `W`'s block never moves, and the output's row-block index is below ten. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block of the output is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of `prod x W`, `x` and `W` the arrays as the region finds them. -/
theorem flushed_eq (c : Dev nD) (t : Fin cfg0.N) :
    (dats m 0 c).flushed 2 t = ((cfg0.win 2).blk t).view.read (Elt Ideal) (prod (V m c main_arg0) (V m c main_arg3)) := by
  show (cfg0.win 2).cut (grid0.coords t) ((dats m 0 c).after 2 t) = _
  rw [after0_2]
  unfold out0_2
  rw [View.canon_unit_zero offset_zero]
  simp only [View.ld_unit_zero (S := S5000x128) offset_zero, View.ld_unit_zero (S := S128x128) offset_zero]
  obtain ⟨e0, e1, e2, e3, e4, e5⟩ := index_facts t
  funext j
  obtain ⟨p, q, rfl⟩ : ∃ (p : Fin 5000) (q : Fin 128), j = ValueIdx.ix2 p q := ⟨j 0, j 1, ValueIdx.eq_ix2 j⟩
  show k0_pay1 (F := Ideal) (iblk m c 0 t) (iblk m c 1 t) (ValueIdx.ix2 p q)
    = prod (V m c main_arg0) (V m c main_arg3) (((cfg0.win 2).blk t).view.emb (ValueIdx.ix2 p q))
  refine (payload_apply (iblk m c 0 t) (iblk m c 1 t) p q).trans ?_
  unfold prod
  refine Finset.sum_congr rfl fun k _ => ?_
  -- the row block of `x` read at (p, k) is `x` at the output entry's row and column k
  have hx : iblk m c 0 t (ValueIdx.ix2 p k)
      = V m c main_arg0 (ValueIdx.ix2 ((((cfg0.win 2).blk t).view.emb (ValueIdx.ix2 p q)) 0) k) := by
    show V m c main_arg0 (((cfg0.win 0).blk t).view.emb (ValueIdx.ix2 p k)) = _
    refine congrArg (V m c main_arg0) ?_
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  -- the block of `W` read at (k, q) is `W` at row k and the output entry's column
  have hw : iblk m c 1 t (ValueIdx.ix2 k q)
      = V m c main_arg3 (ValueIdx.ix2 k ((((cfg0.win 2).blk t).view.emb (ValueIdx.ix2 p q)) 1)) := by
    show V m c main_arg3 (((cfg0.win 1).blk t).view.emb (ValueIdx.ix2 k q)) = _
    refine congrArg (V m c main_arg3) ?_
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [hx, hw]

/-- An index of the output array is in point `t`'s block iff each coordinate is in the block's range on its axis. -/
theorem mem_block (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every entry of the output is in the block of the point whose row block holds its row. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- THE OUTPUT ARRAY after the run: `prod x W` of the argument arrays. -/
theorem product_array (c : Dev nD) :
    (dats m 0 c).arrAt 2 cfg0.N
      = prod (m ((c : Thread nD τ).loc main_arg0)) (m ((c : Thread nD τ).loc main_arg3)) :=
  (dats m 0 c).arrAt_eq_of_cover 2 (prod (V m c main_arg0) (V m c main_arg3)) (fun t _ => flushed_eq m c t) covered

end Cert.Bridge

end
-- ==== Proof.KernelStages.lean ====
/-
  The kernel's program after its region, stage by stage, and each stage identified with the reference's.

  The host operations that follow the pipelined product are named here as a handful of stages over the kernel's own
  shapes: the source and target node lists with the self loops appended (`row`, `col`), the weights extended by
  ones (`ew`), the weighted in-degree `deg = segment_sum (ew, col)`, its guarded inverse square root
  `dinv = where (deg > 0, rsqrt deg, 0)`, the wrap of a possibly negative index into range and its reshaping into an
  index column (`wrapIdx`), the edge coefficients `norm = dinv[row] * ew * dinv[col]`, and the aggregation
  `segment_sum (norm[:, None] * widen (h[row]), col) + b` around a feature matrix `h` stored in the narrow format.
  Each stage is, operation for operation, a stage of the reference (the same dimension numbers, the same literals);
  the one difference is the widening of the gathered rows, which is the identity on the extended reals.
-/
import proofs.«166697_j40175124087238_2_alg».proof.Proof.Gen.KernelIdeal
import proofs.«166697_j40175124087238_2_alg».proof.Proof.Tail

set_option maxRecDepth 16384

noncomputable section

namespace Cert.Bridge

open Idealize.ShloMosaic
open Cert.KernelIdeal Cert.KernelIdeal.Facts₀

/-- Source nodes: row 0 of the edge index, then the nodes themselves (the self loops). -/
def kRow (a1 : IVec S2x800000 32) : IVec S850000 32 :=
  concatenate S850000 0
    [⟨S800000, shapeCast _ (extractStridedSlice S1x800000 ![0, 0] a1 slices_S2x800000_S1x800000_0_0) shapeCasts_S1x800000_S800000⟩,
     ⟨S50000, iotaInDim S50000 32 0⟩] concatenates_S800000_S50000_S850000_d0

/-- Target nodes: row 1 of the edge index, then the nodes themselves. -/
def kCol (a1 : IVec S2x800000 32) : IVec S850000 32 :=
  concatenate S850000 0
    [⟨S800000, shapeCast _ (extractStridedSlice S1x800000 ![1, 0] a1 slices_S2x800000_S1x800000_1_0) shapeCasts_S1x800000_S800000⟩,
     ⟨S50000, iotaInDim S50000 32 0⟩] concatenates_S800000_S50000_S850000_d0

/-- Edge weights, a one for every self loop. -/
def kEw (a2 : FVec Ideal S800000 .f32) : FVec Ideal S850000 .f32 :=
  concatenate S850000 0
    [⟨S800000, a2⟩, ⟨S50000, broadcastInDim S50000 ![] bcast_S_S50000 (constant (F := Ideal) S_ .f32 0x3F800000#32)⟩]
    concatenates_S800000_S50000_S850000_d0

/-- Weighted in-degree: the weights added into a zero vector at their target nodes. -/
def kDeg (a1 : IVec S2x800000 32) (a2 : FVec Ideal S800000 .f32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (kCol a1)) (kEw a2)

/-- Its inverse square root where the degree is positive, zero elsewhere. -/
def kDinv (a1 : IVec S2x800000 32) (a2 : FVec Ideal S800000 .f32) : FVec Ideal S50000 .f32 :=
  select
    (cmpf (F := Ideal) .ogt (kDeg a1 a2) (broadcastInDim S50000 ![] bcast_S_S50000 (constant (F := Ideal) S_ .f32 0x00000000#32)))
    (Host.rsqrt (F := Ideal) (kDeg a1 a2))
    (broadcastInDim S50000 ![] bcast_S_S50000 (id (constant (F := Ideal) S_ .f32 0x00000000#32)))

/-- A node list as an index column: a negative entry wrapped by the node count, then one index per row. -/
def kWrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- Edge coefficients `dinv[row] * ew * dinv[col]`. -/
def kNorm (a1 : IVec S2x800000 32) (a2 : FVec Ideal S800000 .f32) : FVec Ideal S850000 .f32 :=
  mulf (F := Ideal)
    (mulf (F := Ideal) (Host.gather gather_S50000_S850000x1_S850000_n_0_n_n_0_1_1 (kDinv a1 a2) (kWrapIdx (kRow a1))) (kEw a2))
    (Host.gather gather_S50000_S850000x1_S850000_n_0_n_n_0_1_1 (kDinv a1 a2) (kWrapIdx (kCol a1)))

/-- The aggregation around a feature matrix `h` held in the narrow format: its rows gathered, widened, scaled by the
    edge coefficients, added into a zero matrix at the target nodes, and the bias added to every row. -/
def ktail (h : FVec Ideal S50000x128 .bf16) (a1 : IVec S2x800000 32) (a2 : FVec Ideal S800000 .f32) (a4 : FVec Ideal S128 .f32) :
    FVec Ideal S50000x128 .f32 :=
  addf (F := Ideal) (φ := .f32)
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 (kCol a1))
      (mulf (F := Ideal) (φ := .f32)
        (broadcastInDim S850000x128 ![0, 1] bcast_S850000x1_S850000x128_0_1
          (broadcastInDim S850000x1 ![0] bcast_S850000_S850000x1_0 (kNorm a1 a2)))
        (extf (F := Ideal) .f32
          (Host.gather gather_S50000x128_S850000x1_S850000x128_1_0_n_n_0_1_1128 h (kWrapIdx (kRow a1))) bitsLt_bf16_f32)))
    (broadcastInDim S50000x128 ![0, 1] bcast_S1x128_S50000x128_0_1 (broadcastInDim S1x128 ![1] bcast_S128_S1x128_1 a4))

/-! ## Each stage is the reference's -/

section
open Cert.ReferenceIdeal.Read

theorem kRow_eq (a1 : IVec S2x800000 32) : kRow a1 = val_main_v3 (F := Ideal) a1 := rfl
theorem kCol_eq (a1 : IVec S2x800000 32) : kCol a1 = val_main_v6 (F := Ideal) a1 := rfl
theorem kEw_eq (a2 : FVec Ideal S800000 .f32) : kEw a2 = val_main_v8 (F := Ideal) a2 := rfl

theorem kDeg_eq (a1 : IVec S2x800000 32) (a2 : FVec Ideal S800000 .f32) : kDeg a1 a2 = val_main_v11 (F := Ideal) a1 a2 := by
  unfold kDeg; rw [kCol_eq, kEw_eq]; rfl

theorem kDinv_eq (a1 : IVec S2x800000 32) (a2 : FVec Ideal S800000 .f32) : kDinv a1 a2 = val_main_v15 (F := Ideal) a1 a2 := by
  unfold kDinv; rw [kDeg_eq]; rfl

/-- The wrapped source list is the index column of both of the reference's gathers by source, -/
theorem kWrapIdx_row (a1 : IVec S2x800000 32) : kWrapIdx (val_main_v3 (F := Ideal) a1) = val_main_v21 (F := Ideal) a1 := rfl
theorem kWrapIdx_row' (a1 : IVec S2x800000 32) : kWrapIdx (val_main_v3 (F := Ideal) a1) = val_main_v39 (F := Ideal) a1 := rfl
/-- the wrapped target list that of its gather by target. -/
theorem kWrapIdx_col (a1 : IVec S2x800000 32) : kWrapIdx (val_main_v6 (F := Ideal) a1) = val_main_v29 (F := Ideal) a1 := rfl

theorem kNorm_eq (a1 : IVec S2x800000 32) (a2 : FVec Ideal S800000 .f32) : kNorm a1 a2 = val_main_v31 (F := Ideal) a1 a2 := by
  unfold kNorm; rw [kDinv_eq, kRow_eq, kCol_eq, kEw_eq, kWrapIdx_row, kWrapIdx_col]; rfl

/-- The kernel's aggregation is the shared one: widening the gathered rows changes nothing on the extended reals. -/
theorem ktail_eq (h : FVec Ideal S50000x128 .bf16) (a1 : IVec S2x800000 32) (a2 : FVec Ideal S800000 .f32) (a4 : FVec Ideal S128 .f32) :
    ktail h a1 a2 a4 = tail h a1 a2 a4 := by
  unfold ktail tail; rw [kNorm_eq, kRow_eq, kCol_eq, kWrapIdx_row']; rfl

end

/-! ## Reading the composed term back as these stages

The program's host operations, read back one at a time, compose to a term over the buffers they read, and that term
is the staged aggregation: operation by operation, equal operands give equal results.  The one called function (the
guarded `where`) passes its operands through typed references, which transport contents along equalities of buffer
types; each such equality holds by computation, so the transport is the identity — for any degree vector, which is why
the statement below is about an arbitrary one. -/

section
open Idealize.ShloMosaic.StableHlo

theorem addf_congr {s : Shape} {a a' b b' : FVec Ideal s .f32} (ha : a = a') (hb : b = b') :
    addf (F := Ideal) a b = addf (F := Ideal) a' b' := by subst ha hb; rfl
theorem mulf_congr {s : Shape} {a a' b b' : FVec Ideal s .f32} (ha : a = a') (hb : b = b') :
    mulf (F := Ideal) a b = mulf (F := Ideal) a' b' := by subst ha hb; rfl
theorem gather_congr {α : Type} {s si t : Shape} {d d' : GatherDims s si t} (hd : d = d')
    {x x' : s.Idx → α} (hx : x = x') {i i' : IVec si 32} (hi : i = i') : Host.gather d x i = Host.gather d' x' i' := by
  subst hd hx hi; rfl
theorem scatterAdd_congr {s si su : Shape} {d d' : ScatterDims s si su} (hd : d = d')
    {z z' : FVec Ideal s .f32} (hz : z = z') {i i' : IVec si 32} (hi : i = i') {u u' : FVec Ideal su .f32} (hu : u = u') :
    Host.scatterAdd (F := Ideal) d z i u = Host.scatterAdd (F := Ideal) d' z' i' u' := by
  subst hd hz hi hu; rfl
/-- The edge coefficients spread over the 128 feature columns. -/
theorem spread_congr {X Y : FVec Ideal S850000 .f32} (h : X = Y) :
    broadcastInDim S850000x128 ![0, 1] bcast_S850000x1_S850000x128_0_1 (broadcastInDim S850000x1 ![0] bcast_S850000_S850000x1_0 X)
      = broadcastInDim S850000x128 ![0, 1] bcast_S850000x1_S850000x128_0_1 (broadcastInDim S850000x1 ![0] bcast_S850000_S850000x1_0 Y) := by
  subst h; rfl

/-- The guarded inverse square root as the called function leaves it — mask, inverse square root and zero each passed
    through a typed reference — is the plain `where`, for ANY degree vector. -/
theorem dinv_read (D : FVec Ideal S50000 .f32) :
    (TRef.of (sig := sig) (T := ⟨S50000, .f32⟩) main_v16).toBuf (Val := Elt Ideal)
      (select
        ((TRef.of (sig := sig) (T := ⟨S50000, .i1⟩) main_v14).ofBuf (Val := Elt Ideal)
          (cmpf (F := Ideal) .ogt D (broadcastInDim S50000 ![] bcast_S_S50000 (constant (F := Ideal) S_ .f32 0x00000000#32))))
        ((TRef.of (sig := sig) (T := ⟨S50000, .f32⟩) main_v15).ofBuf (Val := Elt Ideal) (Host.rsqrt (F := Ideal) D))
        ((TRef.of (sig := sig) (T := ⟨S50000, .f32⟩) main_call0_v1).ofBuf (Val := Elt Ideal)
          ((TRef.of (sig := sig) (T := ⟨S50000, .f32⟩) main_call0_v1).toBuf (Val := Elt Ideal)
            (broadcastInDim S50000 ![] bcast_S_S50000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal)
                    (constant (F := Ideal) S_ .f32 0x00000000#32)))))))))
      = select
          (cmpf (F := Ideal) .ogt D (broadcastInDim S50000 ![] bcast_S_S50000 (constant (F := Ideal) S_ .f32 0x00000000#32)))
          (Host.rsqrt (F := Ideal) D)
          (broadcastInDim S50000 ![] bcast_S_S50000 (id (constant (F := Ideal) S_ .f32 0x00000000#32))) := rfl

/-- At the program's degree it is the stage `kDinv`. -/
theorem dinv_of_deg (a1 : IVec S2x800000 32) (a2 : FVec Ideal S800000 .f32) (D : FVec Ideal S50000 .f32) (h : D = kDeg a1 a2) :
    select
        (cmpf (F := Ideal) .ogt D (broadcastInDim S50000 ![] bcast_S_S50000 (constant (F := Ideal) S_ .f32 0x00000000#32)))
        (Host.rsqrt (F := Ideal) D)
        (broadcastInDim S50000 ![] bcast_S_S50000 (id (constant (F := Ideal) S_ .f32 0x00000000#32)))
      = kDinv a1 a2 := by
  subst h; rfl

end

end Cert.Bridge

end
-- ==== Proof.KernelTail.lean ====
/-
  The kernel's program after its one region: the same aggregation, around the array the region wrote.

  After the pipelined product the kernel's program runs sixty-two host operations.  Read back one operation at a
  time they compose to a function of four buffers: the region's output array `h` and the arguments `edge_index`,
  `edge_weight` and `b` (the other two arguments are read by the region only).  That function is the shared
  aggregation `tail`: read back they are the stages named beside this module, which are the reference's.
-/
import proofs.«166697_j40175124087238_2_alg».proof.Proof.Gen.KernelIdeal.Frame
import proofs.«166697_j40175124087238_2_alg».proof.Proof.KernelStages

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 16384 in
set_option maxHeartbeats 24800000 in
/-- The program's result buffer after the host operations that follow the region is the aggregation around the
    region's output array, with the edge index, the edge weights and the bias as launched. -/
theorem kernel_tail (c : Dev nD) :
    Pipeline.afterTail₀ cfgs (dats m) 0 (V0 m) [hostOps1, hostOps1_1, hostOps1_2] c main_v49
      = tail ((dats m 0 c).arrAt 2 cfg0.N) (m ((c : Thread nD τ).loc main_arg1)) (m ((c : Thread nD τ).loc main_arg2))
          (m ((c : Thread nD τ).loc main_arg4)) := by
  unfold Pipeline.afterTail₀
  -- the buffers the later operations read, as the region leaves them
  have h0 : Pipeline.withArrays spec0 c (V0 m c) (fun w => (dats m 0 c).arrAt w cfg0.N) (Proc.devRef .tc main_v0)
      = (dats m 0 c).arrAt 2 cfg0.N :=
    Pipeline.withArrays_arr spec0 launch0.win.arr_inj c (V0 m c) (fun w => (dats m 0 c).arrAt w cfg0.N) 2
  have h1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by exact (by decide : ∀ w, Pipeline.arrRef spec0 w ≠ main_arg1))).trans
      (V_main_arg1 m c)
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  have h4 : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans
      (V_main_arg4 m c)
  generalize Pipeline.withArrays spec0 c (V0 m c) (fun w => (dats m 0 c).arrAt w cfg0.N) = Wv at h0 h1 h2 h4 ⊢
  generalize (dats m 0 c).arrAt 2 cfg0.N = H at h0 ⊢
  generalize m ((c : Thread nD τ).loc main_arg1) = a1 at h1 ⊢
  generalize m ((c : Thread nD τ).loc main_arg2) = a2 at h2 ⊢
  generalize m ((c : Thread nD τ).loc main_arg4) = a4 at h4 ⊢
  simp only [hostOps1, hostOps1_1, hostOps1_2, List.flatten_cons, List.flatten_nil, List.append_nil, List.cons_append,
    List.nil_append]
  after_results_simp
  -- the operands of the three concatenations (source list, target list, extended weights), read back likewise
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h0, h1, h2, h4]
  -- the composed term is the staged aggregation, and that is the shared one
  refine Eq.trans ?_ (ktail_eq H a1 a2 a4)
  unfold ktail kNorm
  refine addf_congr (scatterAdd_congr rfl rfl rfl (mulf_congr (spread_congr (mulf_congr
    (mulf_congr (gather_congr rfl ((dinv_read _).trans (dinv_of_deg a1 a2 _ ?_)) rfl) rfl)
    (gather_congr rfl ((dinv_read _).trans (dinv_of_deg a1 a2 _ ?_)) rfl))) rfl)) rfl
  · rfl
  · rfl

end Cert.Bridge

end
-- ==== Proof.KernelRun.lean ====
/-
  The kernel's program, run: its result is the aggregation around `x · W`.

  The generated frame run ends with every array of the pipeline at what the library computes from the blocks written
  back, and every other buffer at what the host operations after the region leave.  The result buffer is one of the
  latter: it holds the shared aggregation around the region's output array, and that array is `prod x W` of the
  argument arrays.  The argument arrays themselves end as launched: two are inputs of the region, three are read by
  the later host operations only.
-/
import proofs.«166697_j40175124087238_2_alg».proof.Proof.WholeProduct
import proofs.«166697_j40175124087238_2_alg».proof.Proof.KernelTail

noncomputable section

namespace Cert.Bridge

open Idealize.ShloMosaic Idealize.ShloMosaic.TcCoe Idealize.SL.Sem
open Cert.KernelIdeal Cert.KernelIdeal.Gen

/-- Every weakly fair execution of the kernel's program terminates with the result buffer at the aggregation around
    `prod x W` and the five argument arrays unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
        = tail (prod (m ((c.tc : Thread nD τ).loc main_arg0)) (m ((c.tc : Thread nD τ).loc main_arg3)))
            (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v49 (Pipeline.mem_restRefs_of main_v49 (by decide) (by decide))).trans (kernel_tail m c)).trans
        (congrArg (fun H => tail H (m ((c.tc : Thread nD τ).loc main_arg1)) (m ((c.tc : Thread nD τ).loc main_arg2))
          (m ((c.tc : Thread nD τ).loc main_arg4))) (product_array m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.Bridge

end
-- ==== Proof.lean ====
/-
  A graph-convolution layer, `out = segment_sum (norm[:, None] * h[row], col) + b` with `h = x · W`, computed two
  ways: the kernel's program makes `h` by a pipelined block product (ten blocks of 5000 rows, each multiplied by
  the whole of `W` on the matrix unit, the operands and the result passed through a narrower float format) and then
  runs the edge normalisation and the gather / scale / scatter-add on the host; the reference makes `h` by one host
  product and runs the same host operations.

  On the extended reals a change of float format is the identity and a product accumulated into zero is the plain
  sum, so every block the kernel writes is a block of the one matrix `prod x W = (∑ k, x (r, k) * W (k, j))`, the
  blocks cover the output, and the host's product is the same sum.  Everything after `h` is one function `tail`
  applied to it on both sides and is never opened.  No arithmetic law beyond reading both products as that sum is
  used, so the finiteness of the inputs is not needed for the equality; nothing was rewritten by the idealization,
  so the preservation claim is trivial; the frames are the generated ones, the reference's its generated run.
-/
import proofs.«166697_j40175124087238_2_alg».proof.Defs
import proofs.«166697_j40175124087238_2_alg».proof.Proof.Gen.Kernel
import proofs.«166697_j40175124087238_2_alg».proof.Proof.Gen.Kernel.Skeleton
import proofs.«166697_j40175124087238_2_alg».proof.Proof.Gen.Kernel.Launch
import proofs.«166697_j40175124087238_2_alg».proof.Proof.Gen.Kernel.Points
import proofs.«166697_j40175124087238_2_alg».proof.Proof.Gen.Kernel.Frame
import proofs.«166697_j40175124087238_2_alg».proof.Proof.Gen.KernelIdeal
import proofs.«166697_j40175124087238_2_alg».proof.Proof.Gen.KernelIdeal.Skeleton
import proofs.«166697_j40175124087238_2_alg».proof.Proof.Gen.KernelIdeal.Launch
import proofs.«166697_j40175124087238_2_alg».proof.Proof.Gen.KernelIdeal.Points
import proofs.«166697_j40175124087238_2_alg».proof.Proof.Gen.KernelIdeal.Frame
import proofs.«166697_j40175124087238_2_alg».proof.Proof.Gen.ReferenceIdeal
import proofs.«166697_j40175124087238_2_alg».proof.Proof.Gen.Pre_finite_inputs
import proofs.«166697_j40175124087238_2_alg».proof.Proof.Gen.ReferenceIdeal.Run
import proofs.«166697_j40175124087238_2_alg».proof.Proof.Gen.ReferenceIdeal.Read
import proofs.«166697_j40175124087238_2_alg».proof.Proof.Tail
import proofs.«166697_j40175124087238_2_alg».proof.Proof.KernelRun
import Idealize.ShloMosaic.Adequacy
import Idealize.ShloMosaic.Init

noncomputable section

namespace Cert.Proof

open Idealize.ShloMosaic Idealize.SL.Sem

/-- The word-level kernel's program runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the aggregation around `prod x W`: the kernel's by its run read back, the reference's
    because its host product is that sum; the arguments agree. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.Bridge.reference_eq, Cert.Bridge.dot_eq_prod,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
